-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S640000 .f32) (main_arg3 : FVec F S640000 .f32) (main_arg4 : FVec F S128x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000 .f32 := Host.absf main_arg3
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S40000x256 : Shape := ⟨2, ![40000, 256]⟩
abbrev S4000x128 : Shape := ⟨2, ![4000, 128]⟩
abbrev S4000x256 : Shape := ⟨2, ![4000, 256]⟩
abbrev S1x640000 : Shape := ⟨2, ![1, 640000]⟩
abbrev S_ : Shape := ⟨0, ![]⟩
abbrev S640000x1 : Shape := ⟨2, ![640000, 1]⟩
abbrev S640000x256 : Shape := ⟨2, ![640000, 256]⟩
abbrev S640000x128 : Shape := ⟨2, ![640000, 128]⟩
abbrev S40000 : Shape := ⟨1, ![40000]⟩
abbrev S40000x1 : Shape := ⟨2, ![40000, 1]⟩
abbrev S4000 : Shape := ⟨1, ![4000]⟩
abbrev S4000x1 : Shape := ⟨2, ![4000, 1]⟩

abbrev nBuf : Space → Nat
  | .hbm => 65
  | .vmem => 14
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S40000x256, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x256, .f32⟩
  | .hbm, ⟨26, _⟩ => ⟨S640000x128, .f32⟩
  | .hbm, ⟨27, _⟩ => ⟨S640000x128, .f32⟩
  | .hbm, ⟨28, _⟩ => ⟨S640000x1, .f32⟩
  | .hbm, ⟨29, _⟩ => ⟨S640000x1, .f32⟩
  | .hbm, ⟨30, _⟩ => ⟨S640000x128, .f32⟩
  | .hbm, ⟨31, _⟩ => ⟨S640000x128, .f32⟩
  | .hbm, ⟨32, _⟩ => ⟨S640000x1, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S_, .f32⟩
  | .hbm, ⟨44, _⟩ => ⟨S40000x128, .f32⟩
  | .hbm, ⟨45, _⟩ => ⟨S640000x1, .i32⟩
  | .hbm, ⟨46, _⟩ => ⟨S40000x128, .f32⟩
  | .hbm, ⟨47, _⟩ => ⟨S_, .f32⟩
  | .hbm, ⟨48, _⟩ => ⟨S640000, .f32⟩
  | .hbm, ⟨49, _⟩ => ⟨S_, .f32⟩
  | .hbm, ⟨50, _⟩ => ⟨S40000, .f32⟩
  | .hbm, ⟨51, _⟩ => ⟨S640000x1, .i32⟩
  | .hbm, ⟨52, _⟩ => ⟨S40000, .f32⟩
  | .hbm, ⟨53, _⟩ => ⟨S_, .f32⟩
  | .hbm, ⟨54, _⟩ => ⟨S40000, .f32⟩
  | .hbm, ⟨55, _⟩ => ⟨S40000, .f32⟩
  | .hbm, ⟨56, _⟩ => ⟨S40000x1, .f32⟩
  | .hbm, ⟨57, _⟩ => ⟨S40000x128, .f32⟩
  | .hbm, ⟨58, _⟩ => ⟨S40000x128, .f32⟩
  | .hbm, ⟨59, _⟩ => ⟨S40000x1, .f32⟩
  | .hbm, ⟨60, _⟩ => ⟨S40000x128, .f32⟩
  | .hbm, ⟨61, _⟩ => ⟨S40000x128, .f32⟩
  | .hbm, ⟨62, _⟩ => ⟨S1x128, .f32⟩
  | .hbm, ⟨63, _⟩ => ⟨S1x128, .f32⟩
  | .hbm, ⟨64, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4000x256, .f32⟩
  | .local _ .vmem, ⟨7, _⟩ => ⟨S4000x256, .f32⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S640000x256_S640000x128_0_0 : S640000x256.Slices ![0, 0] S640000x128
  slices_S640000x256_S640000x128_0_128 : S640000x256.Slices ![0, 128] S640000x128
  shapeCasts_S640000_S640000x1 : S640000.ShapeCasts S640000x1
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  shapeCasts_S40000_S40000x1 : S40000.ShapeCasts S40000x1
  bcast_S40000x1_S40000x128_0_1 : S40000x1.BroadcastsInDim S40000x128 (![0, 1] : Fin 2 → Fin S40000x128.rank)
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  dot_S4000x128_S128x128_S4000x128_1_0_0_1_n_n_wf : DotDims.WF S4000x128 S128x128 S4000x128 [1] [0] [0] [1] [] []
  gather_S40000x256_S640000x1_S640000x256_1_0_n_n_0_1_1256_wf : GatherDims.WF S40000x256 S640000x1 S640000x256 [1] [0] [] [0] [] 1 ![1, 256]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S40000x256.size a
  hwx0_5 : ∀ i : grid0.Coords, EltTy.bits .f32 = 32 ∨ (Rect.block (s := S40000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S40000x128.size a
  hwx1_3 : ∀ i : grid1.Coords, EltTy.bits .f32 = 32 ∨ (Rect.block (s := S40000x128) S4000x128.size (cc1_transform_3 i) (hinb1_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S40000 : Shape := ⟨1, ![40000]⟩
abbrev S40000x1 : Shape := ⟨2, ![40000, 1]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S40000x128, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S40000x128, .f32⟩
  | .hbm, ⟨15, _⟩ => ⟨S1x128, .f32⟩
  | .hbm, ⟨16, _⟩ => ⟨S40000x128, .f32⟩
  | .hbm, ⟨17, _⟩ => ⟨S40000x128, .f32⟩
  | .hbm, ⟨18, _⟩ => ⟨S40000x128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S640000x1, .f32⟩
  | .hbm, ⟨24, _⟩ => ⟨S640000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S640000x1, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S_, .f32⟩
  | .hbm, ⟨57, _⟩ => ⟨S40000x128, .f32⟩
  | .hbm, ⟨58, _⟩ => ⟨S640000x1, .i32⟩
  | .hbm, ⟨59, _⟩ => ⟨S40000x128, .f32⟩
  | .hbm, ⟨60, _⟩ => ⟨S_, .f32⟩
  | .hbm, ⟨61, _⟩ => ⟨S640000, .f32⟩
  | .hbm, ⟨62, _⟩ => ⟨S_, .f32⟩
  | .hbm, ⟨63, _⟩ => ⟨S40000, .f32⟩
  | .hbm, ⟨64, _⟩ => ⟨S640000x1, .i32⟩
  | .hbm, ⟨65, _⟩ => ⟨S40000, .f32⟩
  | .hbm, ⟨66, _⟩ => ⟨S_, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x1, .f32⟩
  | .hbm, ⟨74, _⟩ => ⟨S40000x128, .f32⟩
  | .hbm, ⟨75, _⟩ => ⟨S40000x128, .f32⟩
  | .hbm, ⟨76, _⟩ => ⟨S_, .f32⟩
  | .hbm, ⟨77, _⟩ => ⟨S40000, .f32⟩
  | .hbm, ⟨78, _⟩ => ⟨S40000x1, .f32⟩
  | .hbm, ⟨79, _⟩ => ⟨S_, .f32⟩
  | .hbm, ⟨80, _⟩ => ⟨S40000x1, .f32⟩
  | .hbm, ⟨81, _⟩ => ⟨S40000x1, .f32⟩
  | .hbm, ⟨82, _⟩ => ⟨S40000x128, .f32⟩
  | .hbm, ⟨83, _⟩ => ⟨S40000x128, .f32⟩
  | .hbm, ⟨84, _⟩ => ⟨S40000x128, .f32⟩
  | .hbm, ⟨85, _⟩ => ⟨S_, .f32⟩
  | .hbm, ⟨86, _⟩ => ⟨S40000, .f32⟩
  | .hbm, ⟨87, _⟩ => ⟨S40000x1, .f32⟩
  | .hbm, ⟨88, _⟩ => ⟨S_, .f32⟩
  | .hbm, ⟨89, _⟩ => ⟨S40000x1, .f32⟩
  | .hbm, ⟨90, _⟩ => ⟨S40000x1, .f32⟩
  | .hbm, ⟨91, _⟩ => ⟨S40000x128, .f32⟩
  | .hbm, ⟨92, _⟩ => ⟨S40000x128, .f32⟩
  | .hbm, ⟨93, _⟩ => ⟨S_, .f32⟩
  | .hbm, ⟨94, _⟩ => ⟨S40000x1, .f32⟩
  | .hbm, ⟨95, _⟩ => ⟨S40000x1, .f32⟩
  | .hbm, ⟨96, _⟩ => ⟨S40000x1, .f32⟩
  | .hbm, ⟨97, _⟩ => ⟨S40000x128, .f32⟩
  | .hbm, ⟨98, _⟩ => ⟨S40000x128, .f32⟩
  | .hbm, ⟨99, _⟩ => ⟨S1x128, .f32⟩
  | .hbm, ⟨100, _⟩ => ⟨S40000x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.KRun.lean ====
/-
  The idealized kernel program's run, with its two result arrays named.

  The program is four segments: a stretch of host operations, the first kernel region, a second stretch of host
  operations, the second kernel region. Every weakly fair execution from a memory with zero counters terminates without a
  fault, and in the final state every unscoped buffer holds the contents the fold through the four segments gives it. Read at
  the two result buffers and at the ten argument buffers this says: the results are the fold's contents at those buffers, and
  the arguments are as launched.
-/
import proofs.«171195_j68693706932589_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments: the two results end at the last boundary's contents, the arguments as launched. -/
theorem run_results : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Val

end
-- ==== Proof.KHost.lean ====
/-
  The host operations of the idealized kernel program, between and around its two kernel regions, as named functions.

  After the first region has written the concatenated array `H` (one row of 256 columns per node), the host reads, per
  edge, the row of `H` at the edge's (normalised, clamped) second end point and splits it into a mean half `hm` and a variance
  half `hv`; forms the messages `hm · w` and `w² · hv + hm² · u` from the edge weights `w`, `u`; adds each edge's message into
  the row of its first end point; counts the edges per first end point, takes the maximum with one, and divides the summed
  means by that degree and the summed variances by its square. The quotient of the means is the input of the second region;
  the quotient of the variances is the program's second result. Before each region a bias or scale vector is recast as a row.
-/
import proofs.«171195_j68693706932589_2_alg».proof.Proof.Gen.KernelIdeal.Frame
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- Row `r` of the edge list, as a vector over the edges. -/
def edgeEnd0 (x1 : (⟨S2x640000, .i32⟩ : BufTy).Contents (Elt Ideal)) : (⟨S640000, .i32⟩ : BufTy).Contents (Elt Ideal) :=
  shapeCast S640000 (extractStridedSlice S1x640000 ![0, 0] x1 slices_S2x640000_S1x640000_0_0) shapeCasts_S1x640000_S640000
def edgeEnd1 (x1 : (⟨S2x640000, .i32⟩ : BufTy).Contents (Elt Ideal)) : (⟨S640000, .i32⟩ : BufTy).Contents (Elt Ideal) :=
  shapeCast S640000 (extractStridedSlice S1x640000 ![1, 0] x1 slices_S2x640000_S1x640000_1_0) shapeCasts_S1x640000_S640000

/-- The column of start indices the gather reads: each edge's second end point, a negative one moved up by the node count. -/
def colIdx (x1 : (⟨S2x640000, .i32⟩ : BufTy).Contents (Elt Ideal)) : (⟨S640000x1, .i32⟩ : BufTy).Contents (Elt Ideal) :=
  broadcastInDim S640000x1 ![0] bcast_S640000_S640000x1_0
    (select (cmpi .slt (edgeEnd1 x1) (broadcastInDim S640000 ![] bcast_S_S640000 (constantI S_ 32 0#32)))
      (addi (edgeEnd1 x1) (broadcastInDim S640000 ![] bcast_S_S640000 (constantI S_ 32 40000#32)))
      (edgeEnd1 x1))

/-- The column of scatter indices: each edge's first end point. -/
def rowIdx (x1 : (⟨S2x640000, .i32⟩ : BufTy).Contents (Elt Ideal)) : (⟨S640000x1, .i32⟩ : BufTy).Contents (Elt Ideal) :=
  broadcastInDim S640000x1 ![0] bcast_S640000_S640000x1_0 (edgeEnd0 x1)

/-- The gathered mean half and variance half of the concatenated array. -/
def gatherLo (H : (⟨S40000x256, .f32⟩ : BufTy).Contents (Elt Ideal)) (x1 : (⟨S2x640000, .i32⟩ : BufTy).Contents (Elt Ideal)) : (⟨S640000x128, .f32⟩ : BufTy).Contents (Elt Ideal) :=
  extractStridedSlice S640000x128 ![0, 0]
    (Host.gather gather_S40000x256_S640000x1_S640000x256_1_0_n_n_0_1_1256 H (colIdx x1)) slices_S640000x256_S640000x128_0_0
def gatherHi (H : (⟨S40000x256, .f32⟩ : BufTy).Contents (Elt Ideal)) (x1 : (⟨S2x640000, .i32⟩ : BufTy).Contents (Elt Ideal)) : (⟨S640000x128, .f32⟩ : BufTy).Contents (Elt Ideal) :=
  extractStridedSlice S640000x128 ![0, 128]
    (Host.gather gather_S40000x256_S640000x1_S640000x256_1_0_n_n_0_1_1256 H (colIdx x1)) slices_S640000x256_S640000x128_0_128

/-- The degree column: edges counted per first end point, at least one. -/
def degCol (x1 : (⟨S2x640000, .i32⟩ : BufTy).Contents (Elt Ideal)) : (⟨S40000x1, .f32⟩ : BufTy).Contents (Elt Ideal) :=
  shapeCast S40000x1
    (maximumf
      (Host.scatterAdd scatter_S40000_S640000x1_S640000_n_0_0_1
        (broadcastInDim S40000 ![] bcast_S_S40000 (constant (F := Ideal) S_ .f32 0x00000000#32))
        (rowIdx x1)
        (broadcastInDim S640000 ![] bcast_S_S640000 (constant (F := Ideal) S_ .f32 0x3F800000#32)))
      (broadcastInDim S40000 ![] bcast_S_S40000 (constant (F := Ideal) S_ .f32 0x3F800000#32)))
    shapeCasts_S40000_S40000x1

/-- The summed mean messages divided by the degree. -/
def outMeanPre (hm : (⟨S640000x128, .f32⟩ : BufTy).Contents (Elt Ideal)) (x1 : (⟨S2x640000, .i32⟩ : BufTy).Contents (Elt Ideal)) (x2 : (⟨S640000, .f32⟩ : BufTy).Contents (Elt Ideal)) : (⟨S40000x128, .f32⟩ : BufTy).Contents (Elt Ideal) :=
  Host.divf
    (Host.scatterAdd scatter_S40000x128_S640000x1_S640000x128_1_0_0_1
      (broadcastInDim S40000x128 ![] bcast_S_S40000x128 (constant (F := Ideal) S_ .f32 0x00000000#32))
      (rowIdx x1)
      (mulf hm (broadcastInDim S640000x128 ![0, 1] bcast_S640000x1_S640000x128_0_1 (shapeCast S640000x1 x2 shapeCasts_S640000_S640000x1))))
    (broadcastInDim S40000x128 ![0, 1] bcast_S40000x1_S40000x128_0_1 (degCol x1))

/-- The summed variance messages divided by the squared degree. -/
def outVar (hm hv : (⟨S640000x128, .f32⟩ : BufTy).Contents (Elt Ideal)) (x1 : (⟨S2x640000, .i32⟩ : BufTy).Contents (Elt Ideal)) (x2 x3 : (⟨S640000, .f32⟩ : BufTy).Contents (Elt Ideal)) : (⟨S40000x128, .f32⟩ : BufTy).Contents (Elt Ideal) :=
  Host.divf
    (Host.scatterAdd scatter_S40000x128_S640000x1_S640000x128_1_0_0_1
      (broadcastInDim S40000x128 ![] bcast_S_S40000x128 (constant (F := Ideal) S_ .f32 0x00000000#32))
      (rowIdx x1)
      (addf
        (mulf (broadcastInDim S640000x128 ![0, 1] bcast_S640000x1_S640000x128_0_1
            (mulf (shapeCast S640000x1 x2 shapeCasts_S640000_S640000x1) (shapeCast S640000x1 x2 shapeCasts_S640000_S640000x1))) hv)
        (mulf (mulf hm hm) (broadcastInDim S640000x128 ![0, 1] bcast_S640000x1_S640000x128_0_1 (shapeCast S640000x1 x3 shapeCasts_S640000_S640000x1)))))
    (broadcastInDim S40000x128 ![0, 1] bcast_S40000x1_S40000x128_0_1 (mulf (degCol x1) (degCol x1)))

variable (U : Valuation τ sig (Elt Ideal))

/-! ## What the first stretch leaves: the two bias vectors as rows, the region's other operands untouched -/

theorem after0_v0 : StableHlo.after (hostOps0 (F := Ideal)) U (Proc.devRef .tc main_v0)
    = shapeCast S1x128 (U (Proc.devRef .tc main_arg5)) shapeCasts_S128_S1x128 := by after_results <;> rfl
theorem after0_v1 : StableHlo.after (hostOps0 (F := Ideal)) U (Proc.devRef .tc main_v1)
    = shapeCast S1x128 (U (Proc.devRef .tc main_arg7)) shapeCasts_S128_S1x128 := by after_results <;> rfl
theorem after0_arg0 : StableHlo.after (hostOps0 (F := Ideal)) U (Proc.devRef .tc main_arg0) = U (Proc.devRef .tc main_arg0) := by after_results <;> rfl
theorem after0_arg1 : StableHlo.after (hostOps0 (F := Ideal)) U (Proc.devRef .tc main_arg1) = U (Proc.devRef .tc main_arg1) := by after_results <;> rfl
theorem after0_arg2 : StableHlo.after (hostOps0 (F := Ideal)) U (Proc.devRef .tc main_arg2) = U (Proc.devRef .tc main_arg2) := by after_results <;> rfl
theorem after0_arg3 : StableHlo.after (hostOps0 (F := Ideal)) U (Proc.devRef .tc main_arg3) = U (Proc.devRef .tc main_arg3) := by after_results <;> rfl
theorem after0_arg4 : StableHlo.after (hostOps0 (F := Ideal)) U (Proc.devRef .tc main_arg4) = U (Proc.devRef .tc main_arg4) := by after_results <;> rfl
theorem after0_arg6 : StableHlo.after (hostOps0 (F := Ideal)) U (Proc.devRef .tc main_arg6) = U (Proc.devRef .tc main_arg6) := by after_results <;> rfl
theorem after0_arg8 : StableHlo.after (hostOps0 (F := Ideal)) U (Proc.devRef .tc main_arg8) = U (Proc.devRef .tc main_arg8) := by after_results <;> rfl
theorem after0_arg9 : StableHlo.after (hostOps0 (F := Ideal)) U (Proc.devRef .tc main_arg9) = U (Proc.devRef .tc main_arg9) := by after_results <;> rfl

/-! ## What the second stretch leaves -/

theorem after1_v45 : StableHlo.after (hostOps1 (F := Ideal)) U (Proc.devRef .tc main_v45)
    = shapeCast S1x128 (U (Proc.devRef .tc main_arg8)) shapeCasts_S128_S1x128 := by after_results <;> rfl
theorem after1_v46 : StableHlo.after (hostOps1 (F := Ideal)) U (Proc.devRef .tc main_v46)
    = shapeCast S1x128 (U (Proc.devRef .tc main_arg9)) shapeCasts_S128_S1x128 := by after_results <;> rfl

set_option maxHeartbeats 8000000 in
theorem after1_v41 : StableHlo.after (hostOps1 (F := Ideal)) U (Proc.devRef .tc main_v41)
    = outMeanPre (gatherLo (U (Proc.devRef .tc main_v2)) (U (Proc.devRef .tc main_arg1))) (U (Proc.devRef .tc main_arg1)) (U (Proc.devRef .tc main_arg2)) := by
  after_results_simp
  rfl

set_option maxHeartbeats 8000000 in
theorem after1_v44 : StableHlo.after (hostOps1 (F := Ideal)) U (Proc.devRef .tc main_v44)
    = outVar (gatherLo (U (Proc.devRef .tc main_v2)) (U (Proc.devRef .tc main_arg1))) (gatherHi (U (Proc.devRef .tc main_v2)) (U (Proc.devRef .tc main_arg1)))
        (U (Proc.devRef .tc main_arg1)) (U (Proc.devRef .tc main_arg2)) (U (Proc.devRef .tc main_arg3)) := by
  after_results_simp
  rfl

end Cert.KernelIdeal.Val

end
-- ==== Proof.Spec.lean ====
/-
  The two array functions the kernel's regions compute, over literal shapes and the extended reals.

  Region one writes the concatenation of a linear map and the exponential of a second one: for node `n` and column `j < 128`
  the entry is `(∑ k, x[n,k] · Wm[k,j]) + bm[j]`, and column `128 + j` holds `exp ((∑ k, x[n,k] · Wl[k,j]) + bl[j])`.
  Region two normalises each row of an array `P`: with `μ = (∑ k, P[n,k]) · c` and `v = (∑ k, (P[n,k] − μ)²) · c`, the entry
  is `(P[n,j] − μ) · rsqrt (v + ε) · g[j] + b[j]`. The scale `c` and the offset `ε` are the binary values of two f32 words
  (`c` is exactly 1/128); a bias and the two LayerNorm rows are read from `[1, 128]` arrays.
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Arr2 (r c : Nat) : Type := (⟨2, ![r, c]⟩ : Shape).Idx → EReal

/-- The first and second coordinate of a rank-2 index, typed by the literal extents. -/
abbrev row {r c : Nat} (i : (⟨2, ![r, c]⟩ : Shape).Idx) : Fin r := ⟨(i 0).val, idx2_lt0 i⟩
abbrev col {r c : Nat} (i : (⟨2, ![r, c]⟩ : Shape).Idx) : Fin c := ⟨(i 1).val, idx2_lt1 i⟩

/-- One entry of `x · W + b`, the bias a `[1, 128]` row. -/
def lin (x : Arr2 40000 128) (W : Arr2 128 128) (b : Arr2 1 128) (n : Fin 40000) (j : Fin 128) : EReal :=
  (∑ k : Fin 128, x (ix2 n k) * W (ix2 k j)) + b (ix2 (0 : Fin 1) j)

/-- The concatenated array: columns below 128 hold the first linear map, columns from 128 on the exponential of the second. -/
def hcat (x : Arr2 40000 128) (Wm : Arr2 128 128) (bm : Arr2 1 128) (Wl : Arr2 128 128) (bl : Arr2 1 128) : Arr2 40000 256 :=
  fun i =>
    if h : (i 1).val < 128 then lin x Wm bm (row i) ⟨(i 1).val, h⟩
    else Ideal.exp (lin x Wl bl (row i) ⟨(i 1).val - 128, by have := idx2_lt1 i; omega⟩)

/-- The scale of the two row means: the f32 word of 2⁻⁷. -/
def scale : EReal := Ideal.ofBits .f32 0x3C000000#32
/-- The variance offset: the f32 word nearest 1e-5. -/
def eps : EReal := Ideal.ofBits .f32 0x3727C5AC#32

/-- The mean of row `n`. -/
def mean (P : Arr2 40000 128) (n : Fin 40000) : EReal := (∑ k : Fin 128, P (ix2 n k)) * scale
/-- An entry's deviation from its row's mean. -/
def dev (P : Arr2 40000 128) (n : Fin 40000) (j : Fin 128) : EReal := P (ix2 n j) - mean P n
/-- The variance of row `n`. -/
def var (P : Arr2 40000 128) (n : Fin 40000) : EReal := (∑ k : Fin 128, dev P n k * dev P n k) * scale

/-- The normalised array. -/
def ln (P : Arr2 40000 128) (g b : Arr2 1 128) : Arr2 40000 128 := fun i =>
  dev P (row i) (col i) * Ideal.rsqrt (var P (row i) + eps) * g (ix2 (0 : Fin 1) (col i)) + b (ix2 (0 : Fin 1) (col i))

theorem hcat_lo (x : Arr2 40000 128) (Wm : Arr2 128 128) (bm : Arr2 1 128) (Wl : Arr2 128 128) (bl : Arr2 1 128)
    (n : Fin 40000) (j : Fin 128) :
    hcat x Wm bm Wl bl (ix2 n (⟨j.val, by omega⟩ : Fin 256)) = lin x Wm bm n j := by
  unfold hcat
  rw [dif_pos (show ((ix2 n (⟨j.val, by omega⟩ : Fin 256)) 1).val < 128 from j.isLt)]

theorem hcat_hi (x : Arr2 40000 128) (Wm : Arr2 128 128) (bm : Arr2 1 128) (Wl : Arr2 128 128) (bl : Arr2 1 128)
    (n : Fin 40000) (j : Fin 128) :
    hcat x Wm bm Wl bl (ix2 n (⟨128 + j.val, by omega⟩ : Fin 256)) = Ideal.exp (lin x Wl bl n j) := by
  unfold hcat
  rw [dif_neg (show ¬ ((ix2 n (⟨128 + j.val, by omega⟩ : Fin 256)) 1).val < 128 from by
    show ¬ (128 + j.val < 128); omega)]
  congr 2
  exact Fin.ext (by show 128 + j.val - 128 = j.val; omega)

theorem ln_apply (P : Arr2 40000 128) (g b : Arr2 1 128) (n : Fin 40000) (j : Fin 128) :
    ln P g b (ix2 n j) = dev P n j * Ideal.rsqrt (var P n + eps) * g (ix2 (0 : Fin 1) j) + b (ix2 (0 : Fin 1) j) := rfl

end Cert.Spec

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Region0.lean ====
/-
  Region one's output array as one function of the arrays the region finds.

  At grid point `t` the body reads rows `4000 t … 4000 t + 3999` of `x` and the whole of `Wm`, `bm`, `Wl`, `bl`, and writes the
  same rows of the output: columns below 128 hold `(∑ k, x[n,k] · Wm[k,j]) + bm[j]`, columns from 128 on hold
  `exp ((∑ k, x[n,k] · Wl[k,j]) + bl[j])`. The ten row blocks tile the 40000 rows, so the array after the region is the
  concatenated array of the specification.
-/
import proofs.«171195_j68693706932589_2_alg».proof.Proof.Gen.KernelIdeal.Frame
import proofs.«171195_j68693706932589_2_alg».proof.Proof.Spec
import proofs.«171195_j68693706932589_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Idealize.ShloMosaic Idealize.ShloMosaic.TcCoe Idealize.SL.Sem Idealize.ShloMosaic.ValueIdx
open Idealize.ShloMosaic.Pipeline (Dat)

/-! ## The body's two payloads at an index -/

theorem zero_off : (![0, 0] : Fin 2 → Nat) = fun _ => 0 := funext fun a => by fin_cases a <;> rfl

theorem lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_row (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction of a `[4000, 128]` block with a `[128, 128]` matrix into a zero accumulator, at `(p, q)`. -/
theorem matmul_at (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A `[1, 128]` row broadcast over 4000 rows reads, at `(p, q)`, the row's entry `q`. -/
theorem bias_at (v : FVec Ideal S1x128 .f32) (p : Fin 4000) (q : Fin 128) :
    broadcastTo S4000x128 (shapeCast S1x128 v shapeCasts_S1x128_S1x128) broadcasts_S1x128_S4000x128 (ix2 p q) = v (ix2 (0 : Fin 1) q) := by
  rw [shapeCast_self]
  refine broadcastTo_apply v broadcasts_S1x128_S4000x128 (ix2 p q) (ix2 (0 : Fin 1) q) fun ax => ?_
  match ax with
  | ⟨0, _⟩ => rfl
  | ⟨1, _⟩ => rfl

/-- The first payload at `(p, q)`: the linear map's entry. -/
theorem pay2_at (x0 : Vec Ideal S4000x128 .f32) (x1 : Vec Ideal S128x128 .f32) (x2 : Vec Ideal S1x128 .f32) (p : Fin 4000) (q : Fin 128) :
    k0_pay2 x0 x1 x2 (ix2 p q) = (∑ k : Fin 128, x0 (ix2 p k) * x1 (ix2 k q)) + x2 (ix2 (0 : Fin 1) q) := by
  unfold k0_pay2 k0_pay1
  refine (addf_apply _ _ (ix2 p q)).trans ?_
  rw [matmul_at, bias_at]
  rfl

/-- The second payload at `(p, q)`: the exponential of the second linear map's entry. -/
theorem pay3_at (x0 : Vec Ideal S4000x128 .f32) (x3 : Vec Ideal S128x128 .f32) (x4 : Vec Ideal S1x128 .f32) (p : Fin 4000) (q : Fin 128) :
    k0_pay3 x0 x3 x4 (ix2 p q) = Ideal.exp ((∑ k : Fin 128, x0 (ix2 p k) * x3 (ix2 k q)) + x4 (ix2 (0 : Fin 1) q)) := by
  unfold k0_pay3 k0_pay1
  refine (Cert.Lib.exp_apply _ (ix2 p q)).trans ?_
  refine congrArg Ideal.exp ?_
  refine (addf_apply _ _ (ix2 p q)).trans ?_
  rw [matmul_at, bias_at]
  rfl

/-! ## The output block after the body, at an index -/

/-- Columns below 128 of the output block hold the first payload. -/
theorem out_lo (x0 : Vec Ideal S4000x128 .f32) (x1 : Vec Ideal S128x128 .f32) (x2 : Vec Ideal S1x128 .f32)
    (x3 : Vec Ideal S128x128 .f32) (x4 : Vec Ideal S1x128 .f32) (p : Fin 4000) (q : Fin 128) :
    out0_5 x0 x1 x2 x3 x4 (ix2 p (⟨q.val, by omega⟩ : Fin 256))
      = (∑ k : Fin 128, x0 (ix2 p k) * x1 (ix2 k q)) + x2 (ix2 (0 : Fin 1) q) := by
  unfold out0_5
  simp only [View.ld_unit_zero (S := S4000x128) zero_off, View.ld_unit_zero (S := S128x128) zero_off, View.ld_unit_zero (S := S1x128) zero_off]
  have hn : ix2 p (⟨q.val, by omega⟩ : Fin 256) ∉ (r0_4).set := by
    rw [Rect.mem_set_unit]
    intro hh
    have h1 : 128 ≤ q.val := (hh 1).1
    omega
  rw [View.canon_cons_of_not_mem (Val := Elt Ideal) (e := .f32) (⟨r0_4, k0_pay3 x0 x3 x4⟩ : View.Piece (Elt Ideal) S4000x256 .f32) [⟨r0_3, k0_pay2 x0 x1 x2⟩] hn]
  have e : ix2 p (⟨q.val, by omega⟩ : Fin 256) = r0_3.emb (ix2 p q) := funext fun a => Fin.ext (by
    match a with
    | ⟨0, _⟩ => rw [Rect.emb_apply]; show p.val = 0 + 1 * p.val; omega
    | ⟨1, _⟩ => rw [Rect.emb_apply]; show q.val = 0 + 1 * q.val; omega)
  rw [e, View.canon_cons_emb]
  exact pay2_at x0 x1 x2 p q

/-- Columns from 128 on hold the second payload. -/
theorem out_hi (x0 : Vec Ideal S4000x128 .f32) (x1 : Vec Ideal S128x128 .f32) (x2 : Vec Ideal S1x128 .f32)
    (x3 : Vec Ideal S128x128 .f32) (x4 : Vec Ideal S1x128 .f32) (p : Fin 4000) (q : Fin 128) :
    out0_5 x0 x1 x2 x3 x4 (ix2 p (⟨128 + q.val, by omega⟩ : Fin 256))
      = Ideal.exp ((∑ k : Fin 128, x0 (ix2 p k) * x3 (ix2 k q)) + x4 (ix2 (0 : Fin 1) q)) := by
  unfold out0_5
  simp only [View.ld_unit_zero (S := S4000x128) zero_off, View.ld_unit_zero (S := S128x128) zero_off, View.ld_unit_zero (S := S1x128) zero_off]
  have e : ix2 p (⟨128 + q.val, by omega⟩ : Fin 256) = r0_4.emb (ix2 p q) := funext fun a => Fin.ext (by
    match a with
    | ⟨0, _⟩ => rw [Rect.emb_apply]; show p.val = 0 + 1 * p.val; omega
    | ⟨1, _⟩ => rw [Rect.emb_apply]; show 128 + q.val = 128 + 1 * q.val; omega)
  rw [e, View.canon_cons_emb]
  exact pay3_at x0 x3 x4 p q

/-- The output block at point `n`, whose first input block is rows `4000 n …` of `X`, is the same rows of the concatenated array. -/
theorem point_eq (X : Cert.Spec.Arr2 40000 128) (Wm : Cert.Spec.Arr2 128 128) (bm : Cert.Spec.Arr2 1 128)
    (Wl : Cert.Spec.Arr2 128 128) (bl : Cert.Spec.Arr2 1 128)
    (x0 : Vec Ideal S4000x128 .f32) (n : Nat) (hn : n < 10)
    (h0 : ∀ (p : Fin 4000) (k : Fin 128), x0 (ix2 p k) = X (ix2 (⟨n * 4000 + p.val, by omega⟩ : Fin 40000) k))
    (p : Fin 4000) (cc : Fin 256) :
    out0_5 x0 Wm bm Wl bl (ix2 p cc) = Cert.Spec.hcat X Wm bm Wl bl (ix2 (⟨n * 4000 + p.val, by omega⟩ : Fin 40000) cc) := by
  obtain ⟨cv, hcv⟩ := cc
  by_cases h : cv < 128
  · show out0_5 x0 Wm bm Wl bl (ix2 p (⟨(⟨cv, h⟩ : Fin 128).val, by omega⟩ : Fin 256))
      = Cert.Spec.hcat X Wm bm Wl bl (ix2 (⟨n * 4000 + p.val, by omega⟩ : Fin 40000) (⟨(⟨cv, h⟩ : Fin 128).val, by omega⟩ : Fin 256))
    rw [out_lo, Cert.Spec.hcat_lo]
    unfold Cert.Spec.lin
    simp only [h0]
  · have e : (⟨cv, hcv⟩ : Fin 256) = ⟨128 + (⟨cv - 128, by omega⟩ : Fin 128).val, by omega⟩ :=
      Fin.ext (by show cv = 128 + (cv - 128); omega)
    rw [e, out_hi, Cert.Spec.hcat_hi]
    unfold Cert.Spec.lin
    simp only [h0]

/-! ## The grid: the index maps, the input blocks and the cover -/

variable (V : (c : Dev nD) → (b : Ref sig .tc) → Buf (Elt Ideal) ((c : Thread nD τ).loc b))

/-- The printed index maps over the grid: the first input and the output move with the point along the rows, every other window stays at block zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-- The first input's block at point `t` is rows `4000 t …` of its array. -/
theorem in0 (c : Dev nD) (t : Fin cfg0.N) (p : Fin 4000) (k : Fin 128) :
    iblk0 V c 0 t (ix2 p k) = V c main_arg0 (ix2 (⟨t.val * 4000 + p.val, by have := point_lt t; omega⟩ : Fin 40000) k) := by
  obtain ⟨e0, e1, -⟩ := index_facts t
  show V c main_arg0 (((cfg0.win 0).blk t).view.emb (ix2 p k)) = _
  refine congrArg (V c main_arg0) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- Each other input's block is its whole array. -/
theorem in1 (c : Dev nD) (t : Fin cfg0.N) : iblk0 V c 1 t = V c main_arg4 := by
  obtain ⟨-, -, e0, e1, -⟩ := index_facts t
  funext j
  show V c main_arg4 (((cfg0.win 1).blk t).view.emb j) = V c main_arg4 j
  refine congrArg (V c main_arg4) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega
theorem in2 (c : Dev nD) (t : Fin cfg0.N) : iblk0 V c 2 t = V c main_v0 := by
  obtain ⟨-, -, -, -, e0, e1, -⟩ := index_facts t
  funext j
  show V c main_v0 (((cfg0.win 2).blk t).view.emb j) = V c main_v0 j
  refine congrArg (V c main_v0) (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega
theorem in3 (c : Dev nD) (t : Fin cfg0.N) : iblk0 V c 3 t = V c main_arg6 := by
  obtain ⟨-, -, -, -, -, -, e0, e1, -⟩ := index_facts t
  funext j
  show V c main_arg6 (((cfg0.win 3).blk t).view.emb j) = V c main_arg6 j
  refine congrArg (V c main_arg6) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega
theorem in4 (c : Dev nD) (t : Fin cfg0.N) : iblk0 V c 4 t = V c main_v1 := by
  obtain ⟨-, -, -, -, -, -, -, -, e0, e1, -⟩ := index_facts t
  funext j
  show V c main_v1 (((cfg0.win 4).blk t).view.emb j) = V c main_v1 j
  refine congrArg (V c main_v1) (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- What point `t` writes back is block `t` of the concatenated array. -/
theorem flushed_eq (c : Dev nD) (t : Fin cfg0.N) :
    (dat0 (F := Ideal) V c).flushed 5 t = ((cfg0.win 5).blk t).view.read (Elt Ideal)
      (Cert.Spec.hcat (V c main_arg0) (V c main_arg4) (V c main_v0) (V c main_arg6) (V c main_v1)) := by
  show (cfg0.win 5).cut (grid0.coords t) ((dat0 (F := Ideal) V c).after 5 t) = _
  rw [after0_5, in1, in2, in3, in4]
  obtain ⟨-, -, -, -, -, -, -, -, -, -, e0, e1⟩ := index_facts t
  funext j
  obtain ⟨p, cc, rfl⟩ : ∃ (p : Fin 4000) (cc : Fin 256), j = ix2 p cc := ⟨j 0, j 1, eq_ix2 j⟩
  refine (point_eq (V c main_arg0) (V c main_arg4) (V c main_v0) (V c main_arg6) (V c main_v1) (iblk0 V c 0 t) t.val (point_lt t) (in0 V c t) p cc).trans ?_
  show _ = Cert.Spec.hcat (V c main_arg0) (V c main_arg4) (V c main_v0) (V c main_arg6) (V c main_v1) (((cfg0.win 5).blk t).view.emb (ix2 p cc))
  refine congrArg _ (funext fun a => Fin.ext ?_)
  match a with
  | ⟨0, _⟩ => show t.val * 4000 + p.val = win0_5.index t (0 : Fin 2) * 4000 + 1 * p.val; omega
  | ⟨1, _⟩ => show cc.val = win0_5.index t (1 : Fin 2) * 256 + 1 * cc.val; omega

/-- An index of the array is in point `t`'s block iff each coordinate is in the block's range on its axis. -/
theorem mem_blk (t : Fin cfg0.N) (i : S40000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v2).slice (win0_5.rect t)).set ↔ _
  rw [View.set_slice_whole, Rect.mem_set_unit]
  exact Iff.rfl

/-- Row `r` is written by point `r / 4000`. -/
theorem cover (i : S40000x256.Idx) : ∃ t : Fin cfg0.N, (cfg0.win 5).flush t = true ∧ i ∈ ((cfg0.win 5).blk t).view.set := by
  have hi0 : (i 0).val < 40000 := idx2_lt0 i
  have hi1 : (i 1).val < 256 := idx2_lt1 i
  let t : Fin cfg0.N := ⟨(i 0).val / 4000, lt_of_lt_of_eq (show (i 0).val / 4000 < 10 by omega) N_0.symm⟩
  obtain ⟨-, -, -, -, -, -, -, -, -, -, e0, e1⟩ := index_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 256 ≤ (i 1).val ∧ (i 1).val < win0_5.index t (1 : Fin 2) * 256 + 256; omega

/-- The array after the region is the concatenated array. -/
theorem region0_value (c : Dev nD) :
    (dat0 (F := Ideal) V c).arrAt 5 cfg0.N
      = Cert.Spec.hcat (V c main_arg0) (V c main_arg4) (V c main_v0) (V c main_arg6) (V c main_v1) :=
  (dat0 (F := Ideal) V c).arrAt_eq_of_cover 5 _ (fun t _ => flushed_eq V c t) cover

end Cert.KernelIdeal.Val0
end
-- ==== Proof.Region1.lean ====
/-
  The second region of the kernel program normalises each row of a `[40000, 128]` array: a grid of ten points, point `t` reading rows
  `4000 t … 4000 t + 3999` and writing the same rows of the result. This module reads the body's one stored value at an
  index, then assembles the ten blocks into the whole array.
-/
import proofs.«171195_j68693706932589_2_alg».proof.Proof.Gen.KernelIdeal.Frame
import proofs.«171195_j68693706932589_2_alg».proof.Proof.Spec
import proofs.«171195_j68693706932589_2_alg».proof.Proof.LibColumn

set_option maxRecDepth 16384

noncomputable section

namespace Cert.KernelIdeal.Val1

open Cert.KernelIdeal Cert.KernelIdeal.Gen Idealize.ShloMosaic Idealize.ShloMosaic.TcCoe Idealize.SL.Sem Idealize.ShloMosaic.ValueIdx

/-! ## The stored value at an index -/

/-- The mean of row `p` of a block: its lane sum times the scale. -/
def bmean (x : Vec Ideal S4000x128 .f32) (p : Fin 4000) : EReal := (∑ k : Fin 128, x (ix2 p k)) * Cert.Spec.scale

/-- The variance of row `p` of a block: the lane sum of the squared deviations times the scale. -/
def bvar (x : Vec Ideal S4000x128 .f32) (p : Fin 4000) : EReal :=
  (∑ k : Fin 128, (x (ix2 p k) - bmean x p) * (x (ix2 p k) - bmean x p)) * Cert.Spec.scale

/-- A lane sum kept as a column and scaled reads at `(p, 0)` the scaled sum of row `p`. -/
theorem scaledRowSumCol_apply (z : FVec Ideal S4000x128 .f32) (p : Fin 4000) (u : Fin 1) :
    mulf (shapeCast S4000x1 (multiReduction (F := Ideal) .add [1] S4000 z 0x00000000#32 reduces_S4000x128_S4000 (.inl rfl) rfl) shapeCasts_S4000_S4000x1)
        (broadcast S4000x1 (Scalar.ofBits (F := Ideal) .f32 0x3C000000#32)) (ix2 p u)
      = (∑ k : Fin 128, z (ix2 p k)) * Cert.Spec.scale := by
  refine (mulf_apply _ _ _).trans ?_
  refine congrArg₂ (· * ·) ?_ rfl
  refine (Cert.Lib.shapeCast_a_a1_apply _ shapeCasts_S4000_S4000x1 p u).trans ?_
  exact Cert.Lib.multiReduction_add_row z reduces_S4000x128_S4000 (.inl rfl) rfl p

/-- Spread back over the lanes, it reads the same at every `(p, q)`. -/
theorem scaledRowSum_apply (z : FVec Ideal S4000x128 .f32) (p : Fin 4000) (q : Fin 128) :
    broadcastTo S4000x128
        (mulf (shapeCast S4000x1 (multiReduction (F := Ideal) .add [1] S4000 z 0x00000000#32 reduces_S4000x128_S4000 (.inl rfl) rfl) shapeCasts_S4000_S4000x1)
          (broadcast S4000x1 (Scalar.ofBits (F := Ideal) .f32 0x3C000000#32)))
        broadcasts_S4000x1_S4000x128 (ix2 p q)
      = (∑ k : Fin 128, z (ix2 p k)) * Cert.Spec.scale :=
  (Cert.Lib.broadcastTo_a1_ab_apply _ broadcasts_S4000x1_S4000x128 p q).trans (scaledRowSumCol_apply z p 0)

/-- An entry less its row's spread mean is the entry less `bmean`. -/
theorem dev_apply (x : Vec Ideal S4000x128 .f32) (p : Fin 4000) (q : Fin 128) :
    subf x (broadcastTo S4000x128
        (mulf (shapeCast S4000x1 (multiReduction (F := Ideal) .add [1] S4000 x 0x00000000#32 reduces_S4000x128_S4000 (.inl rfl) rfl) shapeCasts_S4000_S4000x1)
          (broadcast S4000x1 (Scalar.ofBits (F := Ideal) .f32 0x3C000000#32)))
        broadcasts_S4000x1_S4000x128) (ix2 p q)
      = x (ix2 p q) - bmean x p :=
  (subf_apply _ _ _).trans (congrArg (x (ix2 p q) - ·) (scaledRowSum_apply x p q))

/-- The body's stored value at `(p, q)`: the deviation times the reciprocal root of the shifted variance, times the first row's
    entry `q`, plus the second row's. -/
theorem pay_apply (x0 : Vec Ideal S4000x128 .f32) (x1 x2 : Vec Ideal S1x128 .f32) (p : Fin 4000) (q : Fin 128) :
    k1_pay1 x0 x1 x2 (ix2 p q)
      = (x0 (ix2 p q) - bmean x0 p) * Ideal.rsqrt (bvar x0 p + Cert.Spec.eps) * x1 (ix2 (0 : Fin 1) q) + x2 (ix2 (0 : Fin 1) q) := by
  unfold k1_pay1
  simp only [shapeCast_self]
  refine (addf_apply _ _ _).trans ?_
  refine congrArg₂ (· + ·) ?_ (broadcastTo_1b_ab_apply x2 broadcasts_S1x128_S4000x128 p q)
  refine (mulf_apply _ _ _).trans ?_
  refine congrArg₂ (· * ·) ?_ (broadcastTo_1b_ab_apply x1 broadcasts_S1x128_S4000x128 p q)
  refine (mulf_apply _ _ _).trans ?_
  refine congrArg₂ (· * ·) (dev_apply x0 p q) ?_
  refine (Cert.Lib.broadcastTo_a1_ab_apply _ broadcasts_S4000x1_S4000x128 p q).trans ?_
  refine congrArg Ideal.rsqrt ?_
  refine (addf_apply _ _ _).trans ?_
  refine congrArg₂ (· + ·) ?_ rfl
  refine (scaledRowSumCol_apply _ p 0).trans ?_
  refine congrArg (· * Cert.Spec.scale) ?_
  exact Finset.sum_congr rfl fun k _ => (mulf_apply _ _ _).trans (congrArg₂ (· * ·) (dev_apply x0 p k) (dev_apply x0 p k))

/-! ## A block's stored value is the normalised array read inside the block -/

/-- Row `p` of block `T` is a row of the array. -/
theorem row_lt {T : Nat} (hT : T < 10) (p : Fin 4000) : T * 4000 + p.val < 40000 := by have := p.isLt; omega

/-- When the body's first operand is rows `4000 T …` of `P` and its two row operands are `g` and `b`, the stored value at `y` is the
    normalised array at row `4000 T + y₀`, column `y₁`: the lane sums of a block's row range over the whole row of `P`. -/
theorem blk_value (P : Cert.Spec.Arr2 40000 128) (g b : Cert.Spec.Arr2 1 128)
    (x0 : Vec Ideal S4000x128 .f32) (x1 x2 : Vec Ideal S1x128 .f32) (T : Nat) (hT : T < 10)
    (h0 : ∀ (p : Fin 4000) (k : Fin 128), x0 (ix2 p k) = P (ix2 (⟨T * 4000 + p.val, row_lt hT p⟩ : Fin 40000) k))
    (h1 : ∀ k : Fin 128, x1 (ix2 (0 : Fin 1) k) = g (ix2 (0 : Fin 1) k))
    (h2 : ∀ k : Fin 128, x2 (ix2 (0 : Fin 1) k) = b (ix2 (0 : Fin 1) k))
    (y : S4000x128.Idx) (i : S40000x128.Idx) (hi0 : (i 0).val = T * 4000 + (y 0).val) (hi1 : (i 1).val = (y 1).val) :
    k1_pay1 x0 x1 x2 y = Cert.Spec.ln P g b i := by
  obtain ⟨p, q, rfl⟩ : ∃ (p : Fin 4000) (q : Fin 128), y = ix2 p q := ⟨y 0, y 1, eq_ix2 y⟩
  obtain ⟨n, j, rfl⟩ : ∃ (n : Fin 40000) (j : Fin 128), i = ix2 n j := ⟨i 0, i 1, eq_ix2 i⟩
  obtain rfl : n = (⟨T * 4000 + p.val, row_lt hT p⟩ : Fin 40000) := Fin.ext hi0
  obtain rfl : j = q := Fin.ext hi1
  have hm : bmean x0 p = Cert.Spec.mean P (⟨T * 4000 + p.val, row_lt hT p⟩ : Fin 40000) :=
    congrArg (· * Cert.Spec.scale) (Finset.sum_congr rfl fun k _ => h0 p k)
  have hv : bvar x0 p = Cert.Spec.var P (⟨T * 4000 + p.val, row_lt hT p⟩ : Fin 40000) := by
    unfold bvar Cert.Spec.var Cert.Spec.dev
    rw [hm]
    exact congrArg (· * Cert.Spec.scale) (Finset.sum_congr rfl fun k _ => by rw [h0 p k])
  rw [pay_apply, Cert.Spec.ln_apply, hm, hv, h0 p j, h1 j, h2 j]
  rfl

/-! ## What each grid point writes back -/

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the first operand and the result move to block `t` of their rows, the two row operands stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t` writes back block `t` of the normalised array. -/
theorem flushed_eq (c : Dev nD) (t : Fin cfg1.N) :
    (dat1 (F := Ideal) V c).flushed 3 t
      = ((cfg1.win 3).blk t).view.read (Elt Ideal) (Cert.Spec.ln (V c main_v41) (V c main_v45) (V c main_v46)) := by
  show (cfg1.win 3).cut (grid1.coords t) ((dat1 V c).after 3 t) = _
  rw [after1_3]
  unfold out1_3
  rw [View.canon_unit_zero off_zero]
  simp only [View.ld_unit_zero (S := S4000x128) off_zero, View.ld_unit_zero (S := S1x128) off_zero]
  obtain ⟨e00, e01, e10, e11, e20, e21, e30, e31⟩ := idx_facts t
  have hT : t.val < 10 := lt_of_lt_of_eq t.isLt N_1
  funext j
  refine blk_value (V c main_v41) (V c main_v45) (V c main_v46) (iblk1 V c 0 t) (iblk1 V c 1 t) (iblk1 V c 2 t) t.val hT ?_ ?_ ?_
    ((win1 3).xinj (grid1.coords t) j) (((cfg1.win 3).blk t).view.emb j) ?_ ?_
  · intro p k
    show V c main_v41 (((cfg1.win 0).blk t).view.emb (ix2 p k)) = _
    refine congrArg (V c main_v41) (funext fun a => Fin.ext ?_)
    match a with
    | ⟨0, _⟩ => show win1_0.index t (0 : Fin 2) * 4000 + 1 * p.val = t.val * 4000 + p.val; rw [e00]; omega
    | ⟨1, _⟩ => show win1_0.index t (1 : Fin 2) * 128 + 1 * k.val = k.val; rw [e01]; omega
  · intro k
    show V c main_v45 (((cfg1.win 1).blk t).view.emb (ix2 (0 : Fin 1) k)) = _
    refine congrArg (V c main_v45) (funext fun a => Fin.ext ?_)
    match a with
    | ⟨0, _⟩ => show win1_1.index t (0 : Fin 2) * 1 + 1 * 0 = 0; rw [e10]
    | ⟨1, _⟩ => show win1_1.index t (1 : Fin 2) * 128 + 1 * k.val = k.val; rw [e11]; omega
  · intro k
    show V c main_v46 (((cfg1.win 2).blk t).view.emb (ix2 (0 : Fin 1) k)) = _
    refine congrArg (V c main_v46) (funext fun a => Fin.ext ?_)
    match a with
    | ⟨0, _⟩ => show win1_2.index t (0 : Fin 2) * 1 + 1 * 0 = 0; rw [e20]
    | ⟨1, _⟩ => show win1_2.index t (1 : Fin 2) * 128 + 1 * k.val = k.val; rw [e21]; omega
  · show win1_3.index t (0 : Fin 2) * 4000 + 1 * (j 0).val = t.val * 4000 + (j 0).val; rw [e30]; omega
  · show win1_3.index t (1 : Fin 2) * 128 + 1 * (j 1).val = (j 1).val; rw [e31]; omega

/-! ## The ten blocks tile the array -/

/-- An index of the array is in point `t`'s block iff each coordinate is in the block's range on its axis. -/
theorem mem_blk (t : Fin cfg1.N) (i : S40000x128.Idx) :
    i ∈ ((cfg1.win 3).blk t).view.set
      ↔ ∀ a : Fin 2, win1_3.index t a * S4000x128.size a ≤ (i a).val ∧ (i a).val < win1_3.index t a * S4000x128.size a + S4000x128.size a := by
  show i ∈ ((View.whole main_v47).slice (win1_3.rect t)).set ↔ _
  rw [View.set_slice_whole, Rect.mem_set_unit]
  exact Iff.rfl

/-- Row `r` lies in the block of point `r / 4000`, which writes back. -/
theorem cover (i : S40000x128.Idx) :
    ∃ t : Fin cfg1.N, (cfg1.win 3).flush t = true ∧ i ∈ ((cfg1.win 3).blk t).view.set := by
  have hi0 : (i 0).val < 40000 := idx2_lt0 i
  have hi1 : (i 1).val < 128 := idx2_lt1 i
  have hN : grid1.N = 10 := N_1
  obtain ⟨t, ht⟩ : ∃ t : Fin cfg1.N, t.val = (i 0).val / 4000 :=
    ⟨⟨(i 0).val / 4000, by show (i 0).val / 4000 < grid1.N; rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 4000 ≤ (i 0).val ∧ (i 0).val < win1_3.index t (0 : Fin 2) * 4000 + 4000
    rw [e30]; omega
  | ⟨1, _⟩ =>
    show win1_3.index t (1 : Fin 2) * 128 ≤ (i 1).val ∧ (i 1).val < win1_3.index t (1 : Fin 2) * 128 + 128
    rw [e31]; omega

/-- After the ten write-backs the result array is the normalised array. -/
theorem region1_value (c : Dev nD) :
    (dat1 (F := Ideal) V c).arrAt 3 cfg1.N
      = Cert.Spec.ln (V c main_v41) (V c main_v45) (V c main_v46) :=
  (dat1 (F := Ideal) V c).arrAt_eq_of_cover 3 (Cert.Spec.ln (V c main_v41) (V c main_v45) (V c main_v46))
    (fun t _ => flushed_eq V c t) cover

end Cert.KernelIdeal.Val1

end
-- ==== Proof.KValue.lean ====
/-
  The idealized kernel program's two results as functions of its argument arrays.

  The fold of the buffer contents through the program's four segments, read at the two result buffers. The first result is
  what the second region leaves in its output array: the row normalisation of its input array, which the second host stretch
  computed as the summed mean messages over the degree, from the array the first region left (the concatenated linear
  maps of the arguments) and the edge arrays; the scale and offset rows are the arguments recast. The second result is
  untouched by the second region: it is the summed variance messages over the squared degree, from the same array.
  No argument array is written by any segment, so each is read back at its launch contents.
-/
import proofs.«171195_j68693706932589_2_alg».proof.Proof.KRun
import proofs.«171195_j68693706932589_2_alg».proof.Proof.KHost
import proofs.«171195_j68693706932589_2_alg».proof.Proof.Spec
import proofs.«171195_j68693706932589_2_alg».proof.Proof.Region0
import proofs.«171195_j68693706932589_2_alg».proof.Proof.Region1

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array of the launch memory, read at core `c`. -/
abbrev arg (b : Ref sig .tc) : Buf (Elt Ideal) ((c.tc : Thread nD τ).loc b) := m ((c.tc : Thread nD τ).loc b)

/-! ## The first stretch and the first region -/

theorem V1_arg0 : V1 m ρ c main_arg0 = arg m c main_arg0 := after0_arg0 (W0 m ρ c)
theorem V1_arg4 : V1 m ρ c main_arg4 = arg m c main_arg4 := after0_arg4 (W0 m ρ c)
theorem V1_arg6 : V1 m ρ c main_arg6 = arg m c main_arg6 := after0_arg6 (W0 m ρ c)
theorem V1_v0 : V1 m ρ c main_v0 = shapeCast S1x128 (arg m c main_arg5) shapeCasts_S128_S1x128 := after0_v0 (W0 m ρ c)
theorem V1_v1 : V1 m ρ c main_v1 = shapeCast S1x128 (arg m c main_arg7) shapeCasts_S128_S1x128 := after0_v1 (W0 m ρ c)

/-- The array the first region leaves: the concatenated linear maps of the arguments. -/
def hArr : (⟨S40000x256, .f32⟩ : BufTy).Contents (Elt Ideal) :=
  Cert.Spec.hcat (arg m c main_arg0) (arg m c main_arg4) (shapeCast S1x128 (arg m c main_arg5) shapeCasts_S128_S1x128)
    (arg m c main_arg6) (shapeCast S1x128 (arg m c main_arg7) shapeCasts_S128_S1x128)

theorem W2_v2 : W2 m ρ c (Proc.devRef .tc main_v2) = hArr m c := by
  have h := (W2_arr m ρ c 5).trans (Cert.KernelIdeal.Val0.region0_value (V1 m ρ) c)
  rw [V1_arg0, V1_arg4, V1_arg6, V1_v0, V1_v1] at h
  exact h

/-- The edge arrays and the two scale vectors pass both the first stretch and the first region untouched. -/
theorem W2_arg1 : W2 m ρ c (Proc.devRef .tc main_arg1) = arg m c main_arg1 :=
  (W2_of_ne m ρ c main_arg1 (by decide)).trans (after0_arg1 (W0 m ρ c))
theorem W2_arg2 : W2 m ρ c (Proc.devRef .tc main_arg2) = arg m c main_arg2 :=
  (W2_of_ne m ρ c main_arg2 (by decide)).trans (after0_arg2 (W0 m ρ c))
theorem W2_arg3 : W2 m ρ c (Proc.devRef .tc main_arg3) = arg m c main_arg3 :=
  (W2_of_ne m ρ c main_arg3 (by decide)).trans (after0_arg3 (W0 m ρ c))
theorem W2_arg8 : W2 m ρ c (Proc.devRef .tc main_arg8) = arg m c main_arg8 :=
  (W2_of_ne m ρ c main_arg8 (by decide)).trans (after0_arg8 (W0 m ρ c))
theorem W2_arg9 : W2 m ρ c (Proc.devRef .tc main_arg9) = arg m c main_arg9 :=
  (W2_of_ne m ρ c main_arg9 (by decide)).trans (after0_arg9 (W0 m ρ c))

/-! ## The second stretch and the second region -/

theorem V3_v41 : V3 m ρ c main_v41
    = outMeanPre (gatherLo (hArr m c) (arg m c main_arg1)) (arg m c main_arg1) (arg m c main_arg2) := by
  have h := after1_v41 (W2 m ρ c)
  rw [W2_v2, W2_arg1, W2_arg2] at h
  exact h
theorem V3_v45 : V3 m ρ c main_v45 = shapeCast S1x128 (arg m c main_arg8) shapeCasts_S128_S1x128 := by
  have h := after1_v45 (W2 m ρ c)
  rw [W2_arg8] at h
  exact h
theorem V3_v46 : V3 m ρ c main_v46 = shapeCast S1x128 (arg m c main_arg9) shapeCasts_S128_S1x128 := by
  have h := after1_v46 (W2 m ρ c)
  rw [W2_arg9] at h
  exact h

/-- The first result: the row normalisation of the summed mean messages over the degree. -/
theorem W4_v47 : W4 m ρ c (Proc.devRef .tc main_v47)
    = Cert.Spec.ln (outMeanPre (gatherLo (hArr m c) (arg m c main_arg1)) (arg m c main_arg1) (arg m c main_arg2))
        (shapeCast S1x128 (arg m c main_arg8) shapeCasts_S128_S1x128) (shapeCast S1x128 (arg m c main_arg9) shapeCasts_S128_S1x128) := by
  have h := (W4_arr m ρ c 3).trans (Cert.KernelIdeal.Val1.region1_value (V3 m ρ) c)
  rw [V3_v41, V3_v45, V3_v46] at h
  exact h

/-- The second result: the summed variance messages over the squared degree; the second region does not write it. -/
theorem W4_v44 : W4 m ρ c (Proc.devRef .tc main_v44)
    = outVar (gatherLo (hArr m c) (arg m c main_arg1)) (gatherHi (hArr m c) (arg m c main_arg1))
        (arg m c main_arg1) (arg m c main_arg2) (arg m c main_arg3) := by
  have h := after1_v44 (W2 m ρ c)
  rw [W2_v2, W2_arg1, W2_arg2, W2_arg3] at h
  exact (W4_of_ne m ρ c main_v44 (by decide)).trans h

end Cert.KernelIdeal.Val

end
-- ==== Proof.LibGatherRows.lean ====
/-
  A shape operation read at an index: the gather that takes whole rows of a rank-2 array through a column of start indices.
-/
import Idealize.ShloMosaic.PureOps.Ideal
import Idealize.ShloMosaic.Lib.ValueIdx

set_option maxRecDepth 16384

noncomputable section

namespace Cert.Lib

open Idealize.ShloMosaic Idealize.ShloMosaic.ValueIdx

section GatherRows
variable {α : Type}

/-- The dimension numbers of a row gather: operand `[N, D]`, start indices `[E, 1]`, result `[E, D]`; the result's
    axis 1 is the offset axis, the operand's axis 0 is collapsed and is the one the start index names, the index
    vector lies along axis 1 of the start indices, and a slice is one whole row. -/
abbrev rowDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the operand's axis 0 the row gather reads the clamped start index alone: the axis is named by the start index
    map, is not a batching axis, and is collapsed. -/
theorem rowDims_axis0 {N D E w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (j : Fin D) :
    (rowDims N D E wf).start (ix2 e j) idx (0 : Fin 2) + (rowDims N D E wf).batchCoord (ix2 e j) (0 : Fin 2)
      + (rowDims N D E wf).offCoord (ix2 e j) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D E wf).startIndexMap from List.mem_singleton.mpr rfl)]
  have hsi : (rowDims N D E wf).siIdx (ix2 e j) ⟨List.idxOf (0 : Fin 2) (rowDims N D E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 the row gather reads the result's column alone: the axis is not named by the start index
    map, is not a batching axis, and is the one kept axis, read by the result's offset axis. -/
theorem rowDims_axis1 {N D E w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (j : Fin D) :
    (rowDims N D E wf).start (ix2 e j) idx (1 : Fin 2) + (rowDims N D E wf).batchCoord (ix2 e j) (1 : Fin 2)
      + (rowDims N D E wf).offCoord (ix2 e j) (1 : Fin 2) = j.val := by
  rw [GatherDims.batchCoord_eq_zero _ _ _ List.not_mem_nil]
  unfold GatherDims.start
  have h10 : ¬ (1 : Fin 2) ∈ [(0 : Fin 2)] := by decide
  rw [dif_neg (show ¬ (1 : Fin 2) ∈ (rowDims N D E wf).startIndexMap from h10)]
  simp only [Nat.add_zero, Nat.zero_add]
  have hk : (1 : Fin 2) ∈ (rowDims N D E wf).sKept :=
    (GatherDims.mem_sKept _ _).mpr ⟨h10, List.not_mem_nil⟩
  unfold GatherDims.offCoord
  rw [dif_pos hk]
  rfl

/-- The row gather read at `(e, j)`: the operand at the row named by the start index `idx[e, 0]`, read signed and
    clamped into `[0, N − 1]`, and at column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ => exact rowDims_axis0 wf idx e j
  | ⟨1, _⟩ => exact rowDims_axis1 wf idx e j

end GatherRows

end Cert.Lib

end
-- ==== Proof.RefGather.lean ====
/-
  The kernel program gathers whole rows of the concatenated array and then slices each half; the reference gathers rows of
  each half separately. Both read the same clamped row of the same array.
-/
import proofs.«171195_j68693706932589_2_alg».proof.Proof.Gen.KernelIdeal.Frame
import proofs.«171195_j68693706932589_2_alg».proof.Proof.Gen.ReferenceIdeal.Read
import proofs.«171195_j68693706932589_2_alg».proof.Proof.Spec
import proofs.«171195_j68693706932589_2_alg».proof.Proof.LibGatherRows

set_option maxRecDepth 16384

noncomputable section

namespace Cert.Bridge

open Cert.ReferenceIdeal Idealize.ShloMosaic Idealize.ShloMosaic.TcCoe Idealize.SL.Sem Idealize.ShloMosaic.ValueIdx

theorem gather_mean (x0 : (⟨S40000x128, .f32⟩ : BufTy).Contents (Elt Ideal)) (x4 x6 : (⟨S128x128, .f32⟩ : BufTy).Contents (Elt Ideal))
    (x5 x7 : (⟨S128, .f32⟩ : BufTy).Contents (Elt Ideal)) (h : S128.ShapeCasts S1x128)
    (hlin : ∀ (n : Fin 40000) (j : Fin 128), Read.val_main_v3 (F := Ideal) x0 x4 x5 (ix2 n j) = Cert.Spec.lin x0 x4 (shapeCast S1x128 x5 h) n j)
    (idx : (⟨S640000x1, .i32⟩ : BufTy).Contents (Elt Ideal)) :
    extractStridedSlice Cert.KernelIdeal.S640000x128 ![0, 0]
        (Host.gather Cert.KernelIdeal.gather_S40000x256_S640000x1_S640000x256_1_0_n_n_0_1_1256
          (Cert.Spec.hcat x0 x4 (shapeCast S1x128 x5 h) x6 (shapeCast S1x128 x7 h)) idx)
        Cert.KernelIdeal.Facts₀.slices_S640000x256_S640000x128_0_0
      = Host.gather gather_S40000x128_S640000x1_S640000x128_1_0_n_n_0_1_1128 (Read.val_main_v3 (F := Ideal) x0 x4 x5) idx := by
  funext i
  obtain ⟨e, j, rfl⟩ : ∃ (e : Fin 640000) (j : Fin 128), i = ix2 e j := ⟨_, _, eq_ix2 i⟩
  -- the slice at (e, j) is the gathered array at (e, j)
  refine (extractStridedSlice_apply ![0, 0] _ _ (ix2 e j) (ix2 e (⟨j.val, by omega⟩ : Fin 256)) (fun a => match a with
    | ⟨0, _⟩ => by show e.val = 0 + e.val; omega
    | ⟨1, _⟩ => by show j.val = 0 + j.val; omega)).trans ?_
  -- both gathers read the row named by the clamped start index
  have hl := Cert.Lib.gather_rows_apply (N := 40000) (D := 256) (E := 640000) (by omega)
    Cert.KernelIdeal.Facts₀.gather_S40000x256_S640000x1_S640000x256_1_0_n_n_0_1_1256_wf
    (Cert.Spec.hcat x0 x4 (shapeCast S1x128 x5 h) x6 (shapeCast S1x128 x7 h)) idx e (⟨j.val, by omega⟩ : Fin 256)
  have hr := Cert.Lib.gather_rows_apply (N := 40000) (D := 128) (E := 640000) (by omega)
    Cert.ReferenceIdeal.Facts₀.gather_S40000x128_S640000x1_S640000x128_1_0_n_n_0_1_1128_wf
    (Read.val_main_v3 (F := Ideal) x0 x4 x5) idx e j
  exact (hl.trans ((Cert.Spec.hcat_lo x0 x4 (shapeCast S1x128 x5 h) x6 (shapeCast S1x128 x7 h) _ j).trans (hlin _ j).symm)).trans hr.symm

theorem gather_var (x0 : (⟨S40000x128, .f32⟩ : BufTy).Contents (Elt Ideal)) (x4 x6 : (⟨S128x128, .f32⟩ : BufTy).Contents (Elt Ideal))
    (x5 x7 : (⟨S128, .f32⟩ : BufTy).Contents (Elt Ideal)) (h : S128.ShapeCasts S1x128)
    (hlin : ∀ (n : Fin 40000) (j : Fin 128), Read.val_main_v8 (F := Ideal) x0 x6 x7 (ix2 n j) = Ideal.exp (Cert.Spec.lin x0 x6 (shapeCast S1x128 x7 h) n j))
    (idx : (⟨S640000x1, .i32⟩ : BufTy).Contents (Elt Ideal)) :
    extractStridedSlice Cert.KernelIdeal.S640000x128 ![0, 128]
        (Host.gather Cert.KernelIdeal.gather_S40000x256_S640000x1_S640000x256_1_0_n_n_0_1_1256
          (Cert.Spec.hcat x0 x4 (shapeCast S1x128 x5 h) x6 (shapeCast S1x128 x7 h)) idx)
        Cert.KernelIdeal.Facts₀.slices_S640000x256_S640000x128_0_128
      = Host.gather gather_S40000x128_S640000x1_S640000x128_1_0_n_n_0_1_1128 (Read.val_main_v8 (F := Ideal) x0 x6 x7) idx := by
  funext i
  obtain ⟨e, j, rfl⟩ : ∃ (e : Fin 640000) (j : Fin 128), i = ix2 e j := ⟨_, _, eq_ix2 i⟩
  -- the slice at (e, j) is the gathered array at (e, 128 + j)
  refine (extractStridedSlice_apply ![0, 128] _ _ (ix2 e j) (ix2 e (⟨128 + j.val, by omega⟩ : Fin 256)) (fun a => match a with
    | ⟨0, _⟩ => by show e.val = 0 + e.val; omega
    | ⟨1, _⟩ => by show 128 + j.val = 128 + j.val; omega)).trans ?_
  -- both gathers read the row named by the clamped start index
  have hl := Cert.Lib.gather_rows_apply (N := 40000) (D := 256) (E := 640000) (by omega)
    Cert.KernelIdeal.Facts₀.gather_S40000x256_S640000x1_S640000x256_1_0_n_n_0_1_1256_wf
    (Cert.Spec.hcat x0 x4 (shapeCast S1x128 x5 h) x6 (shapeCast S1x128 x7 h)) idx e (⟨128 + j.val, by omega⟩ : Fin 256)
  have hr := Cert.Lib.gather_rows_apply (N := 40000) (D := 128) (E := 640000) (by omega)
    Cert.ReferenceIdeal.Facts₀.gather_S40000x128_S640000x1_S640000x128_1_0_n_n_0_1_1128_wf
    (Read.val_main_v8 (F := Ideal) x0 x6 x7) idx e j
  exact (hl.trans ((Cert.Spec.hcat_hi x0 x4 (shapeCast S1x128 x5 h) x6 (shapeCast S1x128 x7 h) _ j).trans (hlin _ j).symm)).trans hr.symm

end Cert.Bridge

end
-- ==== Proof.RefNorm.lean ====
/-
  The reference program's two linear maps, and its row normalisation, read entry by entry as the specification's array functions.
-/
import proofs.«171195_j68693706932589_2_alg».proof.Proof.Gen.ReferenceIdeal.Read
import proofs.«171195_j68693706932589_2_alg».proof.Proof.Spec
import proofs.«171195_j68693706932589_2_alg».proof.Proof.LibColumn
import Idealize.ShloMosaic.Lib.ValueLayout

set_option maxRecDepth 16384

noncomputable section

namespace Cert.Bridge

open Cert.ReferenceIdeal Idealize.ShloMosaic Idealize.ShloMosaic.TcCoe Idealize.SL.Sem Idealize.ShloMosaic.ValueIdx

/-- The left index of the contraction at `(n, j)`, step `k`, is `(n, k)`. -/
private theorem lidx0 (n : Fin 40000) (j : Fin 128) (k : Fin 128) : Read.lidx_main_v0 (ix2 n j) k = ix2 n k :=
  funext fun a => Fin.ext (by match a with | ⟨0, _⟩ => rfl | ⟨1, _⟩ => rfl)
/-- The right index of the contraction at `(n, j)`, step `k`, is `(k, j)`. -/
private theorem ridx0 (n : Fin 40000) (j : Fin 128) (k : Fin 128) : Read.ridx_main_v0 (ix2 n j) k = ix2 k j :=
  funext fun a => Fin.ext (by match a with | ⟨0, _⟩ => rfl | ⟨1, _⟩ => rfl)
/-- The bias row read through its two broadcasts at `(n, j)` is the bias at `j`. -/
private theorem bidx (n : Fin 40000) (j : Fin 128) : Read.idx_main_v1 (Read.idx_main_v2 (ix2 n j)) = ix1 j :=
  funext fun a => Fin.ext (by match a with | ⟨0, _⟩ => rfl)

theorem lin_mean (x0 : (⟨S40000x128, .f32⟩ : BufTy).Contents (Elt Ideal)) (x4 : (⟨S128x128, .f32⟩ : BufTy).Contents (Elt Ideal))
    (x5 : (⟨S128, .f32⟩ : BufTy).Contents (Elt Ideal)) (h : S128.ShapeCasts S1x128) (n : Fin 40000) (j : Fin 128) :
    Read.val_main_v3 (F := Ideal) x0 x4 x5 (ix2 n j) = Cert.Spec.lin x0 x4 (shapeCast S1x128 x5 h) n j := by
  rw [Read.val_main_v3_apply, Read.val_main_v0_apply, Read.val_main_v2_apply, Read.val_main_v1_apply, bidx]
  unfold Cert.Spec.lin
  rw [shapeCast_a_1a_apply x5 h (0 : Fin 1) j]
  simp only [Ideal.addf_def]
  refine congrArg (· + x5 (ix1 j)) ?_
  exact Finset.sum_congr rfl fun k _ => by rw [lidx0, ridx0]

theorem lin_var (x0 : (⟨S40000x128, .f32⟩ : BufTy).Contents (Elt Ideal)) (x6 : (⟨S128x128, .f32⟩ : BufTy).Contents (Elt Ideal))
    (x7 : (⟨S128, .f32⟩ : BufTy).Contents (Elt Ideal)) (h : S128.ShapeCasts S1x128) (n : Fin 40000) (j : Fin 128) :
    Read.val_main_v8 (F := Ideal) x0 x6 x7 (ix2 n j) = Ideal.exp (Cert.Spec.lin x0 x6 (shapeCast S1x128 x7 h) n j) := by
  rw [Read.val_main_v8_apply, Read.val_main_v7_apply, Read.val_main_v4_apply, Read.val_main_v6_apply, Read.val_main_v5_apply]
  unfold Cert.Spec.lin
  rw [shapeCast_a_1a_apply x7 h (0 : Fin 1) j]
  simp only [Ideal.addf_def, Ideal.hostUnary_exp_def]
  refine congrArg Ideal.exp ?_
  have hb : Read.idx_main_v5 (Read.idx_main_v6 (ix2 n j)) = ix1 j :=
    funext fun a => Fin.ext (by match a with | ⟨0, _⟩ => rfl)
  rw [hb]
  refine congrArg (· + x7 (ix1 j)) ?_
  exact Finset.sum_congr rfl fun k _ => by
    have hl : Read.lidx_main_v4 (ix2 n j) k = ix2 n k :=
      funext fun a => Fin.ext (by match a with | ⟨0, _⟩ => rfl | ⟨1, _⟩ => rfl)
    have hr : Read.ridx_main_v4 (ix2 n j) k = ix2 k j :=
      funext fun a => Fin.ext (by match a with | ⟨0, _⟩ => rfl | ⟨1, _⟩ => rfl)
    rw [hl, hr]

/-- The f32 word of `128` denotes the real `128`. -/
private theorem word_128 : Ideal.ofBits .f32 0x43000000#32 = ((128 : ℝ) : EReal) := by
  simp [Ideal.ofBits, Ideal.ieee, -EReal.coe_mul]; norm_num
/-- The f32 word of `2⁻⁷` denotes the real `1 / 128`. -/
private theorem word_scale : Ideal.ofBits .f32 0x3C000000#32 = ((1 / 128 : ℝ) : EReal) := by
  simp [Ideal.ofBits, Ideal.ieee, -EReal.coe_mul]; norm_num
/-- Dividing by `128` is multiplying by `1 / 128`, on every extended real. -/
private theorem div_128 (x : EReal) : Ideal.div x (Ideal.ofBits .f32 0x43000000#32) = x * Cert.Spec.scale := by
  unfold Cert.Spec.scale
  rw [word_128, word_scale]
  exact Ideal.div_coe (by norm_num) x

/-- The program's row mean, a `[40000, 1]` column, at row `n`. -/
private theorem mean_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal))
    (x5 : (⟨S128, .f32⟩ : BufTy).Contents (Elt Ideal)) (n : Fin 40000) :
    Read.val_main_v58 (F := Ideal) x0 x1 x2 x4 x5 (ix2 n (0 : Fin 1)) = Cert.Spec.mean (Read.val_main_v51 (F := Ideal) x0 x1 x2 x4 x5) n := by
  rw [Read.val_main_v58_apply, Read.val_main_v56_apply, Read.val_main_v55_apply, Read.val_main_v57_apply,
    Read.val_main_cst_8_apply, Read.val_main_cst_7_apply]
  generalize Read.val_main_v51 (F := Ideal) x0 x1 x2 x4 x5 = P
  simp only [Ideal.hostDivf_def, Ideal.ofBits_def, Ideal.ofBits_zero_f32, zero_add]
  rw [div_128]
  unfold Cert.Spec.mean
  refine congrArg (· * Cert.Spec.scale) ?_
  exact Finset.sum_congr rfl fun k _ => congrArg P (funext fun a => Fin.ext (by
    match a with | ⟨0, _⟩ => rfl | ⟨1, _⟩ => rfl))

/-- The deviation from the row mean, as the variance reads it. -/
private theorem dev_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal))
    (x5 : (⟨S128, .f32⟩ : BufTy).Contents (Elt Ideal)) (n : Fin 40000) (j : Fin 128) :
    Read.val_main_v60 (F := Ideal) x0 x1 x2 x4 x5 (ix2 n j) = Cert.Spec.dev (Read.val_main_v51 (F := Ideal) x0 x1 x2 x4 x5) n j := by
  rw [Read.val_main_v60_apply, Read.val_main_v59_apply]
  have e : Read.idx_main_v59 (ix2 n j) = ix2 n (0 : Fin 1) :=
    funext fun a => Fin.ext (by match a with | ⟨0, _⟩ => rfl | ⟨1, _⟩ => rfl)
  rw [e, mean_eq]
  rfl

/-- The deviation from the row mean, as the normalised entry reads it. -/
private theorem dev_eq' (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal))
    (x5 : (⟨S128, .f32⟩ : BufTy).Contents (Elt Ideal)) (n : Fin 40000) (j : Fin 128) :
    Read.val_main_v67 (F := Ideal) x0 x1 x2 x4 x5 (ix2 n j) = Cert.Spec.dev (Read.val_main_v51 (F := Ideal) x0 x1 x2 x4 x5) n j := by
  rw [Read.val_main_v67_apply, Read.val_main_v66_apply]
  have e : Read.idx_main_v66 (ix2 n j) = ix2 n (0 : Fin 1) :=
    funext fun a => Fin.ext (by match a with | ⟨0, _⟩ => rfl | ⟨1, _⟩ => rfl)
  rw [e, mean_eq]
  rfl

/-- The program's row variance, a `[40000, 1]` column, at row `n`. -/
private theorem var_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal))
    (x5 : (⟨S128, .f32⟩ : BufTy).Contents (Elt Ideal)) (n : Fin 40000) :
    Read.val_main_v65 (F := Ideal) x0 x1 x2 x4 x5 (ix2 n (0 : Fin 1)) = Cert.Spec.var (Read.val_main_v51 (F := Ideal) x0 x1 x2 x4 x5) n := by
  rw [Read.val_main_v65_apply, Read.val_main_v63_apply, Read.val_main_v62_apply, Read.val_main_v64_apply,
    Read.val_main_cst_10_apply, Read.val_main_cst_9_apply]
  simp only [Ideal.hostDivf_def, Ideal.ofBits_def, Ideal.ofBits_zero_f32, zero_add]
  rw [div_128]
  unfold Cert.Spec.var
  refine congrArg (· * Cert.Spec.scale) ?_
  refine Finset.sum_congr rfl fun k _ => ?_
  have e : Read.idx_main_v62 (Read.idx_main_v63 (ix2 n (0 : Fin 1))) k = ix2 n k :=
    funext fun a => Fin.ext (by match a with | ⟨0, _⟩ => rfl | ⟨1, _⟩ => rfl)
  rw [e, Read.val_main_v61_apply, dev_eq]
  rfl

theorem ln_ref (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal))
    (x5 x8 x9 : (⟨S128, .f32⟩ : BufTy).Contents (Elt Ideal)) (h : S128.ShapeCasts S1x128) :
    Cert.Spec.ln (Read.val_main_v51 (F := Ideal) x0 x1 x2 x4 x5) (shapeCast S1x128 x8 h) (shapeCast S1x128 x9 h)
      = Read.val_main_v78 (F := Ideal) x0 x1 x2 x4 x5 x8 x9 := by
  funext i
  obtain ⟨n, j, rfl⟩ : ∃ (n : Fin 40000) (j : Fin 128), i = ix2 n j := ⟨_, _, eq_ix2 i⟩
  rw [Cert.Spec.ln_apply, shapeCast_a_1a_apply x8 h (0 : Fin 1) j, shapeCast_a_1a_apply x9 h (0 : Fin 1) j]
  rw [Read.val_main_v78_apply, Read.val_main_v75_apply, Read.val_main_v72_apply, Read.val_main_v71_apply,
    Read.val_main_v70_apply, Read.val_main_v69_apply, Read.val_main_v68_apply, Read.val_main_cst_11_apply,
    Read.val_main_v77_apply, Read.val_main_v76_apply, Read.val_main_v74_apply, Read.val_main_v73_apply]
  have e71 : Read.idx_main_v71 (ix2 n j) = ix2 n (0 : Fin 1) :=
    funext fun a => Fin.ext (by match a with | ⟨0, _⟩ => rfl | ⟨1, _⟩ => rfl)
  have e74 : Read.idx_main_v73 (Read.idx_main_v74 (ix2 n j)) = ix1 j :=
    funext fun a => Fin.ext (by match a with | ⟨0, _⟩ => rfl)
  have e77 : Read.idx_main_v76 (Read.idx_main_v77 (ix2 n j)) = ix1 j :=
    funext fun a => Fin.ext (by match a with | ⟨0, _⟩ => rfl)
  rw [e71, e74, e77, dev_eq', var_eq]
  generalize Read.val_main_v51 (F := Ideal) x0 x1 x2 x4 x5 = P
  simp only [Ideal.addf_def, Ideal.mulf_def, Ideal.hostUnary_rsqrt_def, Ideal.ofBits_def]
  rfl

end Cert.Bridge

end
-- ==== Proof.Chain.lean ====
/-
  Between its two regions the kernel program applies to the gathered halves of the concatenated array the same host
  operations the reference applies to its own gathers: weight the rows, add each edge's row into its first end point,
  and divide by the degree or its square. The two sides differ only in how a vector is recast as a column and in the
  order of the two arguments of a maximum.
-/
import proofs.«171195_j68693706932589_2_alg».proof.Proof.KHost
import proofs.«171195_j68693706932589_2_alg».proof.Proof.RefGather
import proofs.«171195_j68693706932589_2_alg».proof.Proof.RefNorm

set_option maxRecDepth 16384

noncomputable section

namespace Cert.Bridge

open Cert.ReferenceIdeal Idealize.ShloMosaic Idealize.ShloMosaic.TcCoe Idealize.SL.Sem Idealize.ShloMosaic.ValueIdx

/-- A vector recast as a column is the vector broadcast along a new trailing unit axis. -/
private theorem cast_col {α : Type} {n : ℕ} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x := by
  funext i
  obtain ⟨p, u, rfl⟩ : ∃ (p : Fin n) (u : Fin 1), i = ix2 p u := ⟨_, _, eq_ix2 i⟩
  refine (Cert.Lib.shapeCast_a_a1_apply x hc p u).trans ?_
  refine (broadcastInDim_apply ![0] hb x (ix2 p u) (ix1 p) fun a => ?_).symm
  match a with
  | ⟨0, _⟩ =>
    show p.val = if n = 1 then 0 else p.val
    split
    · have := p.isLt; omega
    · rfl

/-- The kernel program's edge-weight column is the reference's. -/
private theorem cast_edge (x : (⟨S640000, .f32⟩ : BufTy).Contents (Elt Ideal)) (hc : S640000.ShapeCasts Cert.KernelIdeal.S640000x1) :
    shapeCast Cert.KernelIdeal.S640000x1 x hc = Read.val_main_v13 (F := Ideal) x := by
  unfold Read.val_main_v13
  exact cast_col x hc _

/-- The two maxima that clip the edge count at one take their arguments in opposite orders. -/
private theorem clip_comm (x1 : (⟨S2x640000, .i32⟩ : BufTy).Contents (Elt Ideal)) :
    Read.val_main_v48 (F := Ideal) x1 = maximumf (F := Ideal) (s := S40000) (φ := .f32) (Read.val_main_v47 (F := Ideal) x1) (Read.val_main_call0_v1 (F := Ideal)) := by
  funext i
  unfold Read.val_main_v48
  rw [maximumf_apply, maximumf_apply]
  exact max_comm _ _

/-- The degree column is the same in both programs. -/
private theorem degCol_eq (x1 : (⟨S2x640000, .i32⟩ : BufTy).Contents (Elt Ideal)) : Cert.KernelIdeal.Val.degCol x1 = Read.val_main_v49 (F := Ideal) x1 := by
  unfold Read.val_main_v49
  rw [clip_comm]
  exact cast_col _ _ _

/-- The kernel program's mean half of the gathered rows is the reference's gather of the first linear map. -/
private theorem gatherLo_eq (x0 : (⟨S40000x128, .f32⟩ : BufTy).Contents (Elt Ideal)) (x1 : (⟨S2x640000, .i32⟩ : BufTy).Contents (Elt Ideal)) (x4 : (⟨S128x128, .f32⟩ : BufTy).Contents (Elt Ideal)) (x6 : (⟨S128x128, .f32⟩ : BufTy).Contents (Elt Ideal)) (x5 : (⟨S128, .f32⟩ : BufTy).Contents (Elt Ideal)) (x7 : (⟨S128, .f32⟩ : BufTy).Contents (Elt Ideal)) (h : S128.ShapeCasts S1x128) :
    Cert.KernelIdeal.Val.gatherLo (Cert.Spec.hcat x0 x4 (shapeCast S1x128 x5 h) x6 (shapeCast S1x128 x7 h)) x1 = Read.val_main_v21 (F := Ideal) x0 x1 x4 x5 :=
  gather_mean x0 x4 x6 x5 x7 h (lin_mean x0 x4 x5 h) (Read.val_main_v20 (F := Ideal) x1)

/-- The kernel program's variance half of the gathered rows is the reference's gather of the exponential of the second linear map. -/
private theorem gatherHi_eq (x0 : (⟨S40000x128, .f32⟩ : BufTy).Contents (Elt Ideal)) (x1 : (⟨S2x640000, .i32⟩ : BufTy).Contents (Elt Ideal)) (x4 : (⟨S128x128, .f32⟩ : BufTy).Contents (Elt Ideal)) (x6 : (⟨S128x128, .f32⟩ : BufTy).Contents (Elt Ideal)) (x5 : (⟨S128, .f32⟩ : BufTy).Contents (Elt Ideal)) (x7 : (⟨S128, .f32⟩ : BufTy).Contents (Elt Ideal)) (h : S128.ShapeCasts S1x128) :
    Cert.KernelIdeal.Val.gatherHi (Cert.Spec.hcat x0 x4 (shapeCast S1x128 x5 h) x6 (shapeCast S1x128 x7 h)) x1 = Read.val_main_v28 (F := Ideal) x0 x1 x6 x7 :=
  gather_var x0 x4 x6 x5 x7 h (lin_var x0 x6 x7 h) (Read.val_main_v27 (F := Ideal) x1)

theorem chain_mean (x0 : (⟨S40000x128, .f32⟩ : BufTy).Contents (Elt Ideal)) (x1 : (⟨S2x640000, .i32⟩ : BufTy).Contents (Elt Ideal))
    (x2 : (⟨S640000, .f32⟩ : BufTy).Contents (Elt Ideal)) (x4 : (⟨S128x128, .f32⟩ : BufTy).Contents (Elt Ideal)) (x6 : (⟨S128x128, .f32⟩ : BufTy).Contents (Elt Ideal))
    (x5 : (⟨S128, .f32⟩ : BufTy).Contents (Elt Ideal)) (x7 : (⟨S128, .f32⟩ : BufTy).Contents (Elt Ideal)) (h : S128.ShapeCasts S1x128) :
    Cert.KernelIdeal.Val.outMeanPre
        (Cert.KernelIdeal.Val.gatherLo (Cert.Spec.hcat x0 x4 (shapeCast S1x128 x5 h) x6 (shapeCast S1x128 x7 h)) x1) x1 x2
      = Read.val_main_v51 (F := Ideal) x0 x1 x2 x4 x5 := by
  unfold Cert.KernelIdeal.Val.outMeanPre
  rw [gatherLo_eq x0 x1 x4 x6 x5 x7 h, cast_edge x2, degCol_eq x1]
  rfl

theorem chain_var (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000, .f32⟩ : BufTy).Contents (Elt Ideal)) (x4 : (⟨S128x128, .f32⟩ : BufTy).Contents (Elt Ideal)) (x6 : (⟨S128x128, .f32⟩ : BufTy).Contents (Elt Ideal))
    (x5 : (⟨S128, .f32⟩ : BufTy).Contents (Elt Ideal)) (x7 : (⟨S128, .f32⟩ : BufTy).Contents (Elt Ideal)) (h : S128.ShapeCasts S1x128) :
    Cert.KernelIdeal.Val.outVar
        (Cert.KernelIdeal.Val.gatherLo (Cert.Spec.hcat x0 x4 (shapeCast S1x128 x5 h) x6 (shapeCast S1x128 x7 h)) x1)
        (Cert.KernelIdeal.Val.gatherHi (Cert.Spec.hcat x0 x4 (shapeCast S1x128 x5 h) x6 (shapeCast S1x128 x7 h)) x1) x1 x2 x3
      = Read.val_main_v54 (F := Ideal) x0 x1 x2 x3 x4 x5 x6 x7 := by
  unfold Cert.KernelIdeal.Val.outVar
  rw [gatherLo_eq x0 x1 x4 x6 x5 x7 h, gatherHi_eq x0 x1 x4 x6 x5 x7 h, cast_edge x2, cast_edge x3, degCol_eq x1]
  rfl

end Cert.Bridge

end
-- ==== Proof.lean ====
/-
  The certificate's claims for a graph message-passing layer with uncertainty, computed by a program of two kernel regions
  among host operations, against a plain host reference.

  The layer. For every node `n` a mean feature row `x[n] · Wm + bm` and a variance feature row `exp (x[n] · Wl + bl)`. For
  every edge, with end points `(r, s)` and weights `w`, `u`, the messages `hm[s] · w` and `w² · hv[s] + hm[s]² · u`, added into
  row `r`; each summed row is divided by the node's degree (at least one), the variance row by its square; the mean rows are
  then normalised: `(p − μ) · rsqrt (σ² + ε) · γ + β` with `μ`, `σ²` the row's mean and variance.

  The kernel program computes both feature rows in one region, side by side in one array of 256 columns, block of rows by
  block of rows; gathers whole 256-wide rows per edge and splits them; forms and sums the messages on the host; and normalises
  in a second region, taking a row's mean as its sum times 2⁻⁷. The reference computes the two feature arrays by two whole
  matrix products, gathers each, forms and sums the same messages, and normalises on the host, taking a mean as a sum over 128.

  Read over the extended reals the two agree: a block of a matrix product is the product's rows; a row of the concatenated
  array gathered and then split is the two halves' rows gathered; the messages, the sums over edges and the quotients by the
  degree are the same operations on equal arrays; and a quotient by 128 is the product with 2⁻⁷ at every extended real, the
  infinities included. No step needs the inputs to be finite. Both idealized programs therefore end with the reference's own
  two result functions of the argument arrays.
-/
import proofs.«171195_j68693706932589_2_alg».proof.Defs
import proofs.«171195_j68693706932589_2_alg».proof.Proof.Gen.Kernel
import proofs.«171195_j68693706932589_2_alg».proof.Proof.Gen.Kernel.Frame
import proofs.«171195_j68693706932589_2_alg».proof.Proof.Gen.KernelIdeal
import proofs.«171195_j68693706932589_2_alg».proof.Proof.Gen.KernelIdeal.Frame
import proofs.«171195_j68693706932589_2_alg».proof.Proof.Gen.ReferenceIdeal
import proofs.«171195_j68693706932589_2_alg».proof.Proof.Gen.ReferenceIdeal.Run
import proofs.«171195_j68693706932589_2_alg».proof.Proof.Gen.ReferenceIdeal.Read
import proofs.«171195_j68693706932589_2_alg».proof.Proof.Gen.Pre_finite_inputs
import proofs.«171195_j68693706932589_2_alg».proof.Proof.KValue
import proofs.«171195_j68693706932589_2_alg».proof.Proof.Chain
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is a host program: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the reference's two stage functions of the (agreeing) argument arrays: the kernel
    program by the value of its run, the reference by its own run. -/
theorem algebraic : Cert.algebraic_KernelIdeal_ReferenceIdeal := by
  intro m ρ m' ρ' _ hagree
  refine ⟨fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Val.run_results (F := Ideal) m ρ)
    obtain ⟨h47, h44, hargs⟩ := h c
    refine ⟨h47.trans ?_, h44.trans ?_, hargs⟩
    · rw [Cert.KernelIdeal.Val.W4_v47]
      unfold Cert.KernelIdeal.Val.hArr
      rw [Cert.Bridge.chain_mean]
      exact Cert.Bridge.ln_ref _ _ _ _ _ _ _ _
    · rw [Cert.KernelIdeal.Val.W4_v44]
      unfold Cert.KernelIdeal.Val.hArr
      exact Cert.Bridge.chain_var _ _ _ _ _ _ _ _ _
  · refine (θ_run Cert.ReferenceIdeal.defs _ _).mono (fun r h c => ?_) (Cert.ReferenceIdeal.Value.run (F := Ideal) m' ρ')
    obtain ⟨h78, h54, hargs⟩ := h c
    obtain ⟨e0, e1, e2, e3, e4, e5, e6, e7, e8, e9⟩ := hagree c
    refine ⟨h78.trans ?_, h54.trans ?_, hargs⟩
    · rw [Cert.ReferenceIdeal.Read.val_main_v78_eq, e0, e1, e2, e4, e5, e8, e9]
    · rw [Cert.ReferenceIdeal.Read.val_main_v54_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
